-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S4x2048x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  transposes_S1024x1024_S1024x1024_1_0 : S1024x1024.Transposes [1, 0] S1024x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S512x1024 : 0 < S512x1024.numel
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .bf16 = 32 ∨ (Rect.block (s := S4x2048x1024) S1x2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .f32 = 32 ∨ (Rect.block (s := S4x2048x1024) S1x512x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KPieces.lean ====
/-
  What one run of the kernel body leaves behind, as values. At a grid point whose second coordinate is 0 the
  body first stores the three projections of the batch's rows (queries, keys, values) whole into the three
  carried buffers; at every point it then reads 512 query rows and all key and value rows back and stores the
  attention of those 512 rows. Each stored value is the body's arithmetic applied to the loaded blocks.
-/
import proofs.«101153_j85676007621140_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic Idealize.ShloMosaic.TcCoe Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 query rows a grid point works on, cut out of a full [2048, 1024] array of projected rows: rows
    `512·qi … 512·qi + 511`, `qi` the point's second coordinate. -/
def qrows (i : grid0.Coords) (Q : Vec F S2048x1024 .bf16) : Vec F S512x1024 .bf16 :=
  View.ld Q (Rect.unit (s := S2048x1024) (k0_off1 i) S512x1024.size (k0_off1_inb i))

theorem sA0 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .bf16) (x1 : Vec F S1024x1024 .bf16) (x2 : Vec F S1024x1024 .bf16) (x3 : Vec F S1024x1024 .bf16) :
    sout0_A_0 c i arg2 harg2 arg3 harg3 arg4 harg4 arg5 harg5 arg6 harg6 arg7 harg7 arg8 harg8 arg9 harg9 hc0 x0 x1 x2 x3 = k0_pay2 x0 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz2]
  simp only [View.readAt_eq_ld, harg2.read_unread, harg3.read_unread, View.ld_unit_zero (S := S1x2048x1024) hz3, View.ld_unit_zero (S := S1024x1024) hz2]

theorem sA1 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .bf16) (x1 : Vec F S1024x1024 .bf16) (x2 : Vec F S1024x1024 .bf16) (x3 : Vec F S1024x1024 .bf16) :
    sout0_A_1 c i arg2 harg2 arg3 harg3 arg4 harg4 arg5 harg5 arg6 harg6 arg7 harg7 arg8 harg8 arg9 harg9 hc0 x0 x1 x2 x3 = k0_pay3 x0 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz2]
  simp only [View.readAt_eq_ld, harg2.read_unread, harg4.read_unread, View.ld_unit_zero (S := S1x2048x1024) hz3, View.ld_unit_zero (S := S1024x1024) hz2]

theorem sA2 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .bf16) (x1 : Vec F S1024x1024 .bf16) (x2 : Vec F S1024x1024 .bf16) (x3 : Vec F S1024x1024 .bf16) :
    sout0_A_2 c i arg2 harg2 arg3 harg3 arg4 harg4 arg5 harg5 arg6 harg6 arg7 harg7 arg8 harg8 arg9 harg9 hc0 x0 x1 x2 x3 = k0_pay4 x0 x3 := by
  unfold sout0_A_2
  rw [View.read_writes_eq_canon _ _ _ (scover0_A_2 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero hz2]
  simp only [View.readAt_eq_ld, harg2.read_unread, harg5.read_unread, View.ld_unit_zero (S := S1x2048x1024) hz3, View.ld_unit_zero (S := S1024x1024) hz2]

theorem oA4 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : cond0_0 i) (x0 : Vec F S1x2048x1024 .bf16) (x1 : Vec F S1024x1024 .bf16) (x2 : Vec F S1024x1024 .bf16) (x3 : Vec F S1024x1024 .bf16) :
    out0_A_4 c i arg2 harg2 arg3 harg3 arg4 harg4 arg5 harg5 arg6 harg6 arg7 harg7 arg8 harg8 arg9 harg9 hc0 x0 x1 x2 x3 = k0_pay5 (qrows i (k0_pay2 x0 x1)) (k0_pay3 x0 x2) (k0_pay4 x0 x3) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_run_names
  rw [View.canon_unit_zero (S := S1x512x1024) hz3]
  rw [View.readAt_writes_junk_eq_canon, View.canon_unit_zero hz2, View.readCov_unit_zero _ hz2, View.readCov_unit_zero _ hz2]
  simp only [View.readAt_eq_ld, harg2.read_unread, harg3.read_unread, harg4.read_unread, harg5.read_unread, View.ld_unit_zero (S := S1x2048x1024) hz3, View.ld_unit_zero (S := S1024x1024) hz2]
  rfl

theorem oB4 (c : Dev nD) (i : grid0.Coords) (arg2 : Memref sig .tc .vmem S1x2048x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x512x1024 .f32) (harg6 : arg6.IsWhole) (arg7 : Memref sig .tc .vmem S2048x1024 .bf16) (harg7 : arg7.IsWhole) (arg8 : Memref sig .tc .vmem S2048x1024 .bf16) (harg8 : arg8.IsWhole) (arg9 : Memref sig .tc .vmem S2048x1024 .bf16) (harg9 : arg9.IsWhole) (hc0 : ¬cond0_0 i) (x0 : Vec F S1x2048x1024 .bf16) (x1 : Vec F S1024x1024 .bf16) (x2 : Vec F S1024x1024 .bf16) (x3 : Vec F S1024x1024 .bf16) (xs0 : Vec F S2048x1024 .bf16) (xs1 : Vec F S2048x1024 .bf16) (xs2 : Vec F S2048x1024 .bf16) :
    out0_B_4 c i arg2 harg2 arg3 harg3 arg4 harg4 arg5 harg5 arg6 harg6 arg7 harg7 arg8 harg8 arg9 harg9 hc0 x0 x1 x2 x3 xs0 xs1 xs2 = k0_pay5 (qrows i xs0) xs1 xs2 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1 xs2)]
  unfold kernelRun0_B
  dsimp only
  sl_unfold_run_names
  rw [View.canon_unit_zero (S := S1x512x1024) hz3]
  simp only [View.readAt_eq_ld, harg7.read_unread, harg8.read_unread, harg9.read_unread, View.ld_unit_zero (S := S2048x1024) hz2]
  rfl

end Cert.KernelIdeal.KV
end
-- ==== Proof.KInv.lean ====
/-
  What the three carried buffers and the output's staging buffer hold after every grid point, by induction
  over the points in order. At a point whose second coordinate is 0 the body refills the three buffers with the
  projections of that batch's rows; at the three points after it they are left alone; at every point the stored
  tile is the attention of 512 query rows of the buffers' current contents.
-/
import proofs.«101153_j85676007621140_2_alg».proof.Proof.KPieces

noncomputable section

namespace Cert.KernelIdeal.KInv

open Cert.KernelIdeal Cert.KernelIdeal.Gen Cert.KernelIdeal.KV Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- After a point that refills the buffers: the three projections of the point's blocks, and the tile computed
    from them. -/
theorem outsAt_A (c : Dev nD) (t : Fin cfg0.N) (h0 : t.val % 4 = 0) :
    outsAt0 m c t.val t.isLt
      = (k0_pay5 (qrows (grid0.coords t) (k0_pay2 (iblk m c 0 t) (iblk m c 1 t))) (k0_pay3 (iblk m c 0 t) (iblk m c 2 t)) (k0_pay4 (iblk m c 0 t) (iblk m c 3 t)),
         k0_pay2 (iblk m c 0 t) (iblk m c 1 t), k0_pay3 (iblk m c 0 t) (iblk m c 2 t), k0_pay4 (iblk m c 0 t) (iblk m c 3 t)) := by
  rw [outsAt0_A m c t h0,
    oA4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t),
    sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t),
    sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t),
    sA2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)]

/-- After any other point: the buffers as the point before left them, and the tile computed from them. -/
theorem outsAt_B (c : Dev nD) (t : Fin cfg0.N) (h0 : ¬t.val % 4 = 0) :
    outsAt0 m c t.val t.isLt
      = (k0_pay5 (qrows (grid0.coords t) (outsAt0 m c (t.val - 1) (Nat.lt_of_le_of_lt (Nat.sub_le _ _) t.isLt)).2.1) (outsAt0 m c (t.val - 1) (Nat.lt_of_le_of_lt (Nat.sub_le _ _) t.isLt)).2.2.1 (outsAt0 m c (t.val - 1) (Nat.lt_of_le_of_lt (Nat.sub_le _ _) t.isLt)).2.2.2,
         (outsAt0 m c (t.val - 1) (Nat.lt_of_le_of_lt (Nat.sub_le _ _) t.isLt)).2.1, (outsAt0 m c (t.val - 1) (Nat.lt_of_le_of_lt (Nat.sub_le _ _) t.isLt)).2.2.1, (outsAt0 m c (t.val - 1) (Nat.lt_of_le_of_lt (Nat.sub_le _ _) t.isLt)).2.2.2) := by
  rw [outsAt0_B m c t h0,
    oB4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rfl

/-- At every point the stored tile is the attention payload of the buffers' contents after that point. -/
theorem tile_of_buffers (c : Dev nD) (t : Fin cfg0.N) :
    (outsAt0 m c t.val t.isLt).1
      = k0_pay5 (qrows (grid0.coords t) (outsAt0 m c t.val t.isLt).2.1) (outsAt0 m c t.val t.isLt).2.2.1 (outsAt0 m c t.val t.isLt).2.2.2 := by
  by_cases h0 : t.val % 4 = 0
  · rw [outsAt_A m c t h0]
  · rw [outsAt_B m c t h0]

end Cert.KernelIdeal.KInv

end
-- ==== Proof.Spec.lean ====
/-
  Single-head attention over the extended reals, written twice: the way the kernel computes it
  (scores scaled by the literal 2⁻⁵, the row of exponentials summed, the weighted sum of value rows
  divided ONCE by that sum) and the way the reference computes it (scores divided by √1024, each
  exponential divided by the sum first, then the weighted sum). Both are functions of the four
  argument arrays, index by index, over literal index types.
-/
import Idealize.ShloMosaic.PureOps.Ideal
import Idealize.ShloMosaic.Lib.ValueIdx

noncomputable section

namespace Cert.Attn

open Idealize.ShloMosaic Idealize.ShloMosaic.ValueIdx

/-- A [4, 2048, 1024] array and a [1024, 1024] array of extended reals. -/
abbrev A3 : Type := (⟨3, ![4, 2048, 1024]⟩ : Shape).Idx → EReal
abbrev A2 : Type := (⟨2, ![1024, 1024]⟩ : Shape).Idx → EReal

/-- The four float literals the two programs use, kept as their bit patterns: −∞, 0, 2⁻⁵ and 1024. -/
def negInf : EReal := Ideal.ofBits .f32 0xFF800000#32
def zero : EReal := Ideal.ofBits .f32 0x00000000#32
def scale : EReal := Ideal.ofBits .f32 0x3D000000#32
def dmodel : EReal := Ideal.ofBits .f32 0x44800000#32

/-- A linear projection without bias: row (b, s) of `x` against row `e` of the weight. -/
def proj (x : A3) (W : A2) (b : Fin 4) (s : Fin 2048) (e : Fin 1024) : EReal :=
  ∑ d : Fin 1024, x (ix3 b s d) * W (ix2 e d)

/-- The raw score of query row `q` against key row `k` in batch `b`. -/
def dotQK (x : A3) (Wq Wk : A2) (b : Fin 4) (q k : Fin 2048) : EReal :=
  ∑ d : Fin 1024, proj x Wq b q d * proj x Wk b k d

/-- The maximum of a row of scores, folded from −∞. -/
def rowMax (s : Fin 2048 → EReal) : EReal := (Finset.univ : Finset (Fin 2048)).fold max negInf s

/-- The kernel's scores: the raw score times 2⁻⁵. -/
def scoreK (x : A3) (Wq Wk : A2) (b : Fin 4) (q k : Fin 2048) : EReal := dotQK x Wq Wk b q k * scale

/-- The kernel's output entry: the exponentials of the shifted scores weigh the value rows, and the
    weighted sum is divided by the sum of the exponentials. -/
def outK (x : A3) (Wq Wk Wv : A2) (b : Fin 4) (q : Fin 2048) (d : Fin 1024) : EReal :=
  Ideal.div (∑ k : Fin 2048, Ideal.exp (scoreK x Wq Wk b q k - rowMax (scoreK x Wq Wk b q)) * proj x Wv b k d)
    (∑ k : Fin 2048, Ideal.exp (scoreK x Wq Wk b q k - rowMax (scoreK x Wq Wk b q)))

/-- The reference's scores: the raw score divided by √1024. -/
def scoreR (x : A3) (Wq Wk : A2) (b : Fin 4) (q k : Fin 2048) : EReal :=
  Ideal.div (dotQK x Wq Wk b q k) (Ideal.sqrt dmodel)

/-- The reference's row maximum: −∞ joined once more with the folded maximum. -/
def maxR (x : A3) (Wq Wk : A2) (b : Fin 4) (q : Fin 2048) : EReal := max negInf (rowMax (scoreR x Wq Wk b q))

/-- The reference's output entry: each exponential is divided by 0 + the sum of the row's exponentials,
    and the quotients weigh the value rows. -/
def outR (x : A3) (Wq Wk Wv : A2) (b : Fin 4) (q : Fin 2048) (d : Fin 1024) : EReal :=
  ∑ k : Fin 2048, Ideal.div (Ideal.exp (scoreR x Wq Wk b q k - maxR x Wq Wk b q))
      (zero + ∑ k' : Fin 2048, Ideal.exp (scoreR x Wq Wk b q k' - maxR x Wq Wk b q))
    * proj x Wv b k d

end Cert.Attn

end
-- ==== Proof.KPay.lean ====
/-
  The body's arithmetic read at an index, over the extended reals. A projection payload is the matrix product of
  the batch's rows with a transposed weight; the attention payload, at row r and column d of a 512-row tile, is
  the exponentials of the row's shifted scaled scores weighing column d of the value rows, divided by the sum of
  the exponentials.
-/
import proofs.«101153_j85676007621140_2_alg».proof.Proof.Gen.KernelIdeal.Skeleton
import proofs.«101153_j85676007621140_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Cert.KernelIdeal Cert.KernelIdeal.Gen Idealize.ShloMosaic Idealize.ShloMosaic.ValueIdx

/-! ## The layout operations of the body, read at an index -/

/-- A column of 512 entries made from a vector of 512: entry (r, 0) is entry r. -/
theorem col_apply (v : FVec Ideal S512 .f32) (r : Fin 512) (u : Fin 1) :
    shapeCast S512x1 v shapeCasts_S512_S512x1 (ix2 r u) = v (ix1 r) :=
  shapeCast_apply v _ _ _ (by
    have hu : u.val = 0 := by omega
    rw [Shape.rowMajor_val_two, Shape.rowMajor_val_one]
    show r.val = r.val * 1 + u.val
    omega)

/-- A column broadcast along 2048 lanes reads the column's entry of the row. -/
theorem bcastK_apply (v : FVec Ideal S512x1 .f32) (r : Fin 512) (k : Fin 2048) :
    broadcastTo S512x2048 v broadcasts_S512x1_S512x2048 (ix2 r k) = v (ix2 r (0 : Fin 1)) := by
  refine broadcastTo_apply v _ (ix2 r k) (ix2 r (0 : Fin 1)) fun ax => ?_
  match ax with
  | ⟨0, _⟩ => rfl
  | ⟨1, _⟩ => rfl

/-- The same along 1024 lanes. -/
theorem bcastD_apply (v : FVec Ideal S512x1 .f32) (r : Fin 512) (d : Fin 1024) :
    broadcastTo S512x1024 v broadcasts_S512x1_S512x1024 (ix2 r d) = v (ix2 r (0 : Fin 1)) := by
  refine broadcastTo_apply v _ (ix2 r d) (ix2 r (0 : Fin 1)) fun ax => ?_
  match ax with
  | ⟨0, _⟩ => rfl
  | ⟨1, _⟩ => rfl

/-! ## The three matrix products -/

theorem dProj_lhsN (i : S2048x1024.Idx) (q : dot_S2048x1024_S1024x1024_S2048x1024_1_0_0_1_n_n.contr.Idx) : (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem dProj_rhsN (i : S2048x1024.Idx) (q : dot_S2048x1024_S1024x1024_S2048x1024_1_0_0_1_n_n.contr.Idx) : (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
theorem dProj_lhsC (i : S2048x1024.Idx) (q : dot_S2048x1024_S1024x1024_S2048x1024_1_0_0_1_n_n.contr.Idx) : (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem dProj_rhsC (i : S2048x1024.Idx) (q : dot_S2048x1024_S1024x1024_S2048x1024_1_0_0_1_n_n.contr.Idx) : (dot_S2048x1024_S1024x1024_S2048x1024_1_0_0_1_n_n.rhsIdx i q 0).val = (q ⟨0, by decide⟩).val :=
  dot_S2048x1024_S1024x1024_S2048x1024_1_0_0_1_n_n.rhsIdx_val_of_single rfl i q

/-- Rows against a matrix: entry (s, e) sums row s of the left operand against column e of the right. -/
theorem mmProj_apply (a : FVec Ideal S2048x1024 .bf16) (b : FVec Ideal S1024x1024 .bf16) (s : Fin 2048) (e : Fin 1024) :
    matmul dot_S2048x1024_S1024x1024_S2048x1024_1_0_0_1_n_n none a b (constant S2048x1024 .f32 0x00000000#32) (ix2 s e)
      = ∑ k : Fin 1024, a (ix2 s k) * b (ix2 k e) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 s e) ((contrEquiv1 dot_S2048x1024_S1024x1024_S2048x1024_1_0_0_1_n_n 1024 rfl rfl).symm k) = ix2 s k := funext fun ax => Fin.ext (by
    match ax with
    | ⟨0, _⟩ => exact dProj_lhsN _ _
    | ⟨1, _⟩ => exact (dProj_lhsC _ _).trans hk)
  have er : dot_S2048x1024_S1024x1024_S2048x1024_1_0_0_1_n_n.rhsIdx (ix2 s e) ((contrEquiv1 dot_S2048x1024_S1024x1024_S2048x1024_1_0_0_1_n_n 1024 rfl rfl).symm k) = ix2 k e := funext fun ax => Fin.ext (by
    match ax with
    | ⟨0, _⟩ => exact (dProj_rhsC _ _).trans hk
    | ⟨1, _⟩ => exact dProj_rhsN _ _)
  rw [el, er]

theorem dScore_lhsN (i : S512x2048.Idx) (q : dot_S512x1024_S2048x1024_S512x2048_1_1_0_0_n_n.contr.Idx) : (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem dScore_rhsN (i : S512x2048.Idx) (q : dot_S512x1024_S2048x1024_S512x2048_1_1_0_0_n_n.contr.Idx) : (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem dScore_lhsC (i : S512x2048.Idx) (q : dot_S512x1024_S2048x1024_S512x2048_1_1_0_0_n_n.contr.Idx) : (dot_S512x1024_S2048x1024_S512x2048_1_1_0_0_n_n.lhsIdx i q 1).val = (q ⟨0, by decide⟩).val :=
  dot_S512x1024_S2048x1024_S512x2048_1_1_0_0_n_n.lhsIdx_val_of_single rfl i q
theorem dScore_rhsC (i : S512x2048.Idx) (q : dot_S512x1024_S2048x1024_S512x2048_1_1_0_0_n_n.contr.Idx) : (dot_S512x1024_S2048x1024_S512x2048_1_1_0_0_n_n.rhsIdx i q 1).val = (q ⟨0, by decide⟩).val :=
  dot_S512x1024_S2048x1024_S512x2048_1_1_0_0_n_n.rhsIdx_val_of_single rfl i q

/-- Rows against rows: entry (r, j) sums row r of the left operand against row j of the right. -/
theorem mmScore_apply (a : FVec Ideal S512x1024 .bf16) (b : FVec Ideal S2048x1024 .bf16) (r : Fin 512) (j : Fin 2048) :
    matmul dot_S512x1024_S2048x1024_S512x2048_1_1_0_0_n_n none a b (constant S512x2048 .f32 0x00000000#32) (ix2 r j)
      = ∑ k : Fin 1024, a (ix2 r k) * b (ix2 j k) := by
  simp only [matmul]
  rw [Ideal.matmul_constant_zero_apply, ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r j) ((contrEquiv1 dot_S512x1024_S2048x1024_S512x2048_1_1_0_0_n_n 1024 rfl rfl).symm k) = ix2 r k := funext fun ax => Fin.ext (by
    match ax with
    | ⟨0, _⟩ => exact dScore_lhsN _ _
    | ⟨1, _⟩ => exact (dScore_lhsC _ _).trans hk)
  have er : dot_S512x1024_S2048x1024_S512x2048_1_1_0_0_n_n.rhsIdx (ix2 r j) ((contrEquiv1 dot_S512x1024_S2048x1024_S512x2048_1_1_0_0_n_n 1024 rfl rfl).symm k) = ix2 j k := funext fun ax => Fin.ext (by
    match ax with
    | ⟨0, _⟩ => exact dScore_rhsN _ _
    | ⟨1, _⟩ => exact (dScore_rhsC _ _).trans hk)
  rw [el, er]

theorem dOut_lhsN (i : S512x1024.Idx) (q : dot_S512x2048_S2048x1024_S512x1024_1_0_0_1_n_n.contr.Idx) : (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem dOut_rhsN (i : S512x1024.Idx) (q : dot_S512x2048_S2048x1024_S512x1024_1_0_0_1_n_n.contr.Idx) : (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
theorem dOut_lhsC (i : S512x1024.Idx) (q : dot_S512x2048_S2048x1024_S512x1024_1_0_0_1_n_n.contr.Idx) : (dot_S512x2048_S2048x1024_S512x1024_1_0_0_1_n_n.lhsIdx i q 1).val = (q ⟨0, by decide⟩).val :=
  dot_S512x2048_S2048x1024_S512x1024_1_0_0_1_n_n.lhsIdx_val_of_single rfl i q
theorem dOut_rhsC (i : S512x1024.Idx) (q : dot_S512x2048_S2048x1024_S512x1024_1_0_0_1_n_n.contr.Idx) : (dot_S512x2048_S2048x1024_S512x1024_1_0_0_1_n_n.rhsIdx i q 0).val = (q ⟨0, by decide⟩).val :=
  dot_S512x2048_S2048x1024_S512x1024_1_0_0_1_n_n.rhsIdx_val_of_single rfl i q

/-- Weights against value rows: entry (r, d) sums row r of the weights against column d of the values. -/
theorem mmOut_apply (a : FVec Ideal S512x2048 .bf16) (b : FVec Ideal S2048x1024 .bf16) (r : Fin 512) (d : Fin 1024) :
    matmul dot_S512x2048_S2048x1024_S512x1024_1_0_0_1_n_n none a b (constant S512x1024 .f32 0x00000000#32) (ix2 r d)
      = ∑ k : Fin 2048, a (ix2 r k) * b (ix2 k d) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r d) ((contrEquiv1 dot_S512x2048_S2048x1024_S512x1024_1_0_0_1_n_n 2048 rfl rfl).symm k) = ix2 r k := funext fun ax => Fin.ext (by
    match ax with
    | ⟨0, _⟩ => exact dOut_lhsN _ _
    | ⟨1, _⟩ => exact (dOut_lhsC _ _).trans hk)
  have er : dot_S512x2048_S2048x1024_S512x1024_1_0_0_1_n_n.rhsIdx (ix2 r d) ((contrEquiv1 dot_S512x2048_S2048x1024_S512x1024_1_0_0_1_n_n 2048 rfl rfl).symm k) = ix2 k d := funext fun ax => Fin.ext (by
    match ax with
    | ⟨0, _⟩ => exact (dOut_rhsC _ _).trans hk
    | ⟨1, _⟩ => exact dOut_rhsN _ _)
  rw [el, er]

/-! ## The two lane reductions -/

/-- Row r of a [512, 2048] array with lane k put back is entry (r, k). -/
theorem lift_eq (r : Fin 512) (k : Fin 2048) : reduces_S512x2048_S512.lift (ix1 r) k = ix2 r k :=
  funext fun ax => Fin.ext (by
    match ax with
    | ⟨0, _⟩ => rfl
    | ⟨1, _⟩ => rfl)

/-- The maximum along the 2048 lanes of row r, folded from the literal −∞. -/
theorem rmax_apply (v : FVec Ideal S512x2048 .f32) (r : Fin 512) :
    multiReduction .maximumf [1] S512 v 0xFF800000#32 reduces_S512x2048_S512 (.inl rfl) rfl (ix1 r)
      = (Finset.univ : Finset (Fin 2048)).fold max (Ideal.ofBits .f32 0xFF800000#32) (fun k => v (ix2 r k)) := by
  refine (Ideal.multiReduction_maximumf_single v 0xFF800000#32 reduces_S512x2048_S512 (.inl rfl) rfl (ix1 r)).trans ?_
  have hl : (v ∘ reduces_S512x2048_S512.lift (ix1 r)) = fun k : Fin 2048 => v (ix2 r k) :=
    funext fun k => congrArg v (lift_eq r k)
  rw [hl]
  rfl

/-- The sum along the 2048 lanes of row r. -/
theorem rsum_apply (v : FVec Ideal S512x2048 .f32) (r : Fin 512) :
    multiReduction .add [1] S512 v 0x00000000#32 reduces_S512x2048_S512 (.inl rfl) rfl (ix1 r)
      = ∑ k : Fin 2048, v (ix2 r k) := by
  refine (Ideal.multiReduction_add_single v 0x00000000#32 reduces_S512x2048_S512 (.inl rfl) rfl (ix1 r)).trans ?_
  exact Finset.sum_congr rfl fun k _ => congrArg v (lift_eq r k)

/-! ## The payloads -/

open Cert.Attn (scale rowMax)

/-- The batch's rows with the leading unit axis dropped. -/
theorem pay1_apply (x0 : FVec Ideal S1x2048x1024 .bf16) (s : Fin 2048) (d : Fin 1024) :
    k0_pay1 x0 (ix2 s d) = x0 (ix3 (0 : Fin 1) s d) := by
  unfold k0_pay1
  exact shapeCast_1ab_ab_apply x0 _ s d

/-- The first projection payload at (s, e): row s of the batch against column e of the staged (transposed) weight. -/
theorem pay2_apply (x0 : FVec Ideal S1x2048x1024 .bf16) (w : FVec Ideal S1024x1024 .bf16) (s : Fin 2048) (e : Fin 1024) :
    k0_pay2 x0 w (ix2 s e) = ∑ d : Fin 1024, x0 (ix3 (0 : Fin 1) s d) * w (ix2 d e) := by
  unfold k0_pay2
  simp only [shapeCast_self]
  refine (mmProj_apply (k0_pay1 x0) w s e).trans ?_
  exact Finset.sum_congr rfl fun d _ => by rw [pay1_apply]

/-- The second and third projection payloads are the same function of their operands. -/
theorem pay3_apply (x0 : FVec Ideal S1x2048x1024 .bf16) (w : FVec Ideal S1024x1024 .bf16) (s : Fin 2048) (e : Fin 1024) :
    k0_pay3 x0 w (ix2 s e) = ∑ d : Fin 1024, x0 (ix3 (0 : Fin 1) s d) * w (ix2 d e) := by
  unfold k0_pay3
  simp only [shapeCast_self]
  refine (mmProj_apply (k0_pay1 x0) w s e).trans ?_
  exact Finset.sum_congr rfl fun d _ => by rw [pay1_apply]

theorem pay4_apply (x0 : FVec Ideal S1x2048x1024 .bf16) (w : FVec Ideal S1024x1024 .bf16) (s : Fin 2048) (e : Fin 1024) :
    k0_pay4 x0 w (ix2 s e) = ∑ d : Fin 1024, x0 (ix3 (0 : Fin 1) s d) * w (ix2 d e) := by
  unfold k0_pay4
  simp only [shapeCast_self]
  refine (mmProj_apply (k0_pay1 x0) w s e).trans ?_
  exact Finset.sum_congr rfl fun d _ => by rw [pay1_apply]

/-- The scaled scores of a tile of 512 query rows against all 2048 key rows. -/
def sc (qt : FVec Ideal S512x1024 .bf16) (K : FVec Ideal S2048x1024 .bf16) : FVec Ideal S512x2048 .f32 :=
  mulf (matmul dot_S512x1024_S2048x1024_S512x2048_1_1_0_0_n_n none qt K (constant (F := Ideal) S512x2048 .f32 0x00000000#32))
    (broadcast S512x2048 (Scalar.ofBits (F := Ideal) .f32 0x3D000000#32))

theorem sc_apply (qt : FVec Ideal S512x1024 .bf16) (K : FVec Ideal S2048x1024 .bf16) (r : Fin 512) (k : Fin 2048) :
    sc qt K (ix2 r k) = (∑ e : Fin 1024, qt (ix2 r e) * K (ix2 k e)) * scale := by
  unfold sc
  rw [mulf_apply, mmScore_apply, broadcast_apply]
  rfl

/-- The exponentials of the scores shifted by their row's maximum. -/
def ex (qt : FVec Ideal S512x1024 .bf16) (K : FVec Ideal S2048x1024 .bf16) : FVec Ideal S512x2048 .f32 :=
  exp (subf (sc qt K) (broadcastTo S512x2048 (shapeCast S512x1
    (multiReduction .maximumf [1] S512 (sc qt K) 0xFF800000#32 reduces_S512x2048_S512 (.inl rfl) rfl) shapeCasts_S512_S512x1)
    broadcasts_S512x1_S512x2048))

theorem ex_apply (qt : FVec Ideal S512x1024 .bf16) (K : FVec Ideal S2048x1024 .bf16) (r : Fin 512) (k : Fin 2048) :
    ex qt K (ix2 r k) = Ideal.exp ((∑ e : Fin 1024, qt (ix2 r e) * K (ix2 k e)) * scale
      - rowMax (fun k' => (∑ e : Fin 1024, qt (ix2 r e) * K (ix2 k' e)) * scale)) := by
  unfold ex
  show Ideal.exp (subf (sc qt K) _ (ix2 r k)) = _
  rw [subf_apply, bcastK_apply, col_apply, rmax_apply, sc_apply]
  simp only [sc_apply]
  rfl

/-- One output entry as a function of a query row, the key rows and the value rows. -/
def coreK (qr : Fin 1024 → EReal) (Km Vm : Fin 2048 → Fin 1024 → EReal) (d : Fin 1024) : EReal :=
  Ideal.div
    (∑ k : Fin 2048, Ideal.exp ((∑ e : Fin 1024, qr e * Km k e) * scale
        - rowMax (fun k' => (∑ e : Fin 1024, qr e * Km k' e) * scale)) * Vm k d)
    (∑ k : Fin 2048, Ideal.exp ((∑ e : Fin 1024, qr e * Km k e) * scale
        - rowMax (fun k' => (∑ e : Fin 1024, qr e * Km k' e) * scale)))

/-- The attention payload, spelt over the two named intermediate arrays. -/
theorem pay5_eq (qt : FVec Ideal S512x1024 .bf16) (K V : FVec Ideal S2048x1024 .bf16) :
    k0_pay5 qt K V = shapeCast S1x512x1024 (divf
      (matmul dot_S512x2048_S2048x1024_S512x1024_1_0_0_1_n_n none (truncf .bf16 (ex qt K) bitsLt_bf16_f32) V (constant (F := Ideal) S512x1024 .f32 0x00000000#32))
      (broadcastTo S512x1024 (shapeCast S512x1
        (multiReduction .add [1] S512 (ex qt K) 0x00000000#32 reduces_S512x2048_S512 (.inl rfl) rfl) shapeCasts_S512_S512x1)
        broadcasts_S512x1_S512x1024)) shapeCasts_S512x1024_S1x512x1024 := rfl

/-- The attention payload at row r, column d of the tile. -/
theorem pay5_apply (qt : FVec Ideal S512x1024 .bf16) (K V : FVec Ideal S2048x1024 .bf16) (u : Fin 1) (r : Fin 512) (d : Fin 1024) :
    k0_pay5 (F := Ideal) qt K V (ix3 u r d) = coreK (fun e => qt (ix2 r e)) (fun k e => K (ix2 k e)) (fun k e => V (ix2 k e)) d := by
  rw [pay5_eq, shapeCast_ab_1ab_apply, divf_apply, mmOut_apply, bcastD_apply, col_apply, rsum_apply]
  simp only [truncf_apply, ex_apply]
  rfl

end Cert.KernelIdeal.KPay

end
-- ==== Proof.KBlocks.lean ====
/-
  What the kernel's input windows hold. Before the grid runs, the host converts x to bf16 — the identity on
  extended reals — and transposes and converts each weight. Window 0's block at grid point t is batch
  t / 4 of x, whole; the blocks of windows 1, 2 and 3 are, at every point, the whole transposed weight:
  entry (d, e) of the block is entry (e, d) of the weight. The output window's block index at point t is
  (t / 4, t % 4, 0), and the offset at which the kernel reads its query rows is row 512 · (t % 4).
-/
import proofs.«101153_j85676007621140_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KBlocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ### The staged arrays, as the grid finds them, at an index -/

/-- The staged x is x: the conversion to bf16 changes no extended real. -/
theorem V0_apply (c : Dev nD) (i : S4x2048x1024.Idx) :
    (V m c main_v0 : S4x2048x1024.Idx → EReal) i = (m ((c : Thread nD τ).loc main_arg0) : S4x2048x1024.Idx → EReal) i := by
  dsimp only [Gen.V, Gen.hostOps0]; after_results; rfl

/-- Each staged weight is the weight transposed. -/
theorem V2_apply (c : Dev nD) (d e : Fin 1024) :
    (V m c main_v2 : S1024x1024.Idx → EReal) (ix2 d e) = (m ((c : Thread nD τ).loc main_arg1) : S1024x1024.Idx → EReal) (ix2 e d) := by
  dsimp only [Gen.V, Gen.hostOps0]; after_results
  show transpose S1024x1024 [1, 0] _ transposes_S1024x1024_S1024x1024_1_0 (ix2 d e) = _
  exact ValueIdx.transpose_ix2_apply _ _ d e
theorem V4_apply (c : Dev nD) (d e : Fin 1024) :
    (V m c main_v4 : S1024x1024.Idx → EReal) (ix2 d e) = (m ((c : Thread nD τ).loc main_arg2) : S1024x1024.Idx → EReal) (ix2 e d) := by
  dsimp only [Gen.V, Gen.hostOps0]; after_results
  show transpose S1024x1024 [1, 0] _ transposes_S1024x1024_S1024x1024_1_0 (ix2 d e) = _
  exact ValueIdx.transpose_ix2_apply _ _ d e
theorem V6_apply (c : Dev nD) (d e : Fin 1024) :
    (V m c main_v6 : S1024x1024.Idx → EReal) (ix2 d e) = (m ((c : Thread nD τ).loc main_arg3) : S1024x1024.Idx → EReal) (ix2 e d) := by
  dsimp only [Gen.V, Gen.hostOps0]; after_results
  show transpose S1024x1024 [1, 0] _ transposes_S1024x1024_S1024x1024_1_0 (ix2 d e) = _
  exact ValueIdx.transpose_ix2_apply _ _ d e

/-! ### The windows' block indices and the kernel's row offset, over the sixteen grid points -/

theorem idx0 : ∀ t : Fin cfg0.N, win0_0.index t 0 = t.val / 4 ∧ win0_0.index t 1 = 0 ∧ win0_0.index t 2 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = 0 ∧ win0_2.index t 1 = 0 :=
  (by decide +kernel : ∀ t : Fin grid0.N, _)
theorem idx3 : ∀ t : Fin cfg0.N, win0_3.index t 0 = 0 ∧ win0_3.index t 1 = 0 :=
  (by decide +kernel : ∀ t : Fin grid0.N, _)
theorem idx4 : ∀ t : Fin cfg0.N, win0_4.index t 0 = t.val / 4 ∧ win0_4.index t 1 = t.val % 4 ∧ win0_4.index t 2 = 0 :=
  (by decide +kernel : ∀ t : Fin grid0.N, _)
theorem off1 : ∀ t : Fin cfg0.N, k0_off1 (grid0.coords t) = ![512 * (t.val % 4), 0] :=
  (by decide +kernel : ∀ t : Fin grid0.N, _)

/-! ### The input blocks -/

/-- Window 0's block at point t is batch t / 4 of x. -/
theorem iblk0_apply (c : Dev nD) (t : Fin cfg0.N) (u : Fin 1) (s : Fin 2048) (d : Fin 1024) :
    (iblk m c 0 t : Vec Ideal S1x2048x1024 .bf16) (ix3 u s d)
      = m ((c : Thread nD τ).loc main_arg0) (ix3 (⟨t.val / 4, by have := t.isLt; have : cfg0.N = 16 := N_0; omega⟩ : Fin 4) s d) := by
  unfold iblk
  rw [View.read_apply]
  show (V m c main_v0 : S4x2048x1024.Idx → EReal) _ = _
  refine Eq.trans (congrArg (V m c main_v0 : S4x2048x1024.Idx → EReal) ?_) (V0_apply m c _)
  funext a
  apply Fin.ext
  match a with
  | ⟨0, _⟩ => show win0_0.index t 0 * 1 + 1 * u.val = t.val / 4; rw [(idx0 t).1]; omega
  | ⟨1, _⟩ => show win0_0.index t 1 * 2048 + 1 * s.val = s.val; rw [(idx0 t).2.1]; omega
  | ⟨2, _⟩ => show win0_0.index t 2 * 1024 + 1 * d.val = d.val; rw [(idx0 t).2.2]; omega

/-- The blocks of windows 1, 2 and 3 are the transposed weights, at every point. -/
theorem iblk1_apply (c : Dev nD) (t : Fin cfg0.N) (d e : Fin 1024) :
    (iblk m c 1 t : Vec Ideal S1024x1024 .bf16) (ix2 d e) = m ((c : Thread nD τ).loc main_arg1) (ix2 e d) := by
  unfold iblk
  rw [View.read_apply]
  show (V m c main_v2 : S1024x1024.Idx → EReal) _ = _
  refine Eq.trans (congrArg (V m c main_v2 : S1024x1024.Idx → EReal) ?_) (V2_apply m c d e)
  funext a
  apply Fin.ext
  match a with
  | ⟨0, _⟩ => show win0_1.index t 0 * 1024 + 1 * d.val = d.val; rw [(idx1 t).1]; omega
  | ⟨1, _⟩ => show win0_1.index t 1 * 1024 + 1 * e.val = e.val; rw [(idx1 t).2]; omega
theorem iblk2_apply (c : Dev nD) (t : Fin cfg0.N) (d e : Fin 1024) :
    (iblk m c 2 t : Vec Ideal S1024x1024 .bf16) (ix2 d e) = m ((c : Thread nD τ).loc main_arg2) (ix2 e d) := by
  unfold iblk
  rw [View.read_apply]
  show (V m c main_v4 : S1024x1024.Idx → EReal) _ = _
  refine Eq.trans (congrArg (V m c main_v4 : S1024x1024.Idx → EReal) ?_) (V4_apply m c d e)
  funext a
  apply Fin.ext
  match a with
  | ⟨0, _⟩ => show win0_2.index t 0 * 1024 + 1 * d.val = d.val; rw [(idx2 t).1]; omega
  | ⟨1, _⟩ => show win0_2.index t 1 * 1024 + 1 * e.val = e.val; rw [(idx2 t).2]; omega
theorem iblk3_apply (c : Dev nD) (t : Fin cfg0.N) (d e : Fin 1024) :
    (iblk m c 3 t : Vec Ideal S1024x1024 .bf16) (ix2 d e) = m ((c : Thread nD τ).loc main_arg3) (ix2 e d) := by
  unfold iblk
  rw [View.read_apply]
  show (V m c main_v6 : S1024x1024.Idx → EReal) _ = _
  refine Eq.trans (congrArg (V m c main_v6 : S1024x1024.Idx → EReal) ?_) (V6_apply m c d e)
  funext a
  apply Fin.ext
  match a with
  | ⟨0, _⟩ => show win0_3.index t 0 * 1024 + 1 * d.val = d.val; rw [(idx3 t).1]; omega
  | ⟨1, _⟩ => show win0_3.index t 1 * 1024 + 1 * e.val = e.val; rw [(idx3 t).2]; omega

end Cert.KernelIdeal.KBlocks

end
-- ==== Proof.KTile.lean ====
/-
  The stored tile of every grid point as attention over the extended reals. After grid point t (batch
  b = t / 4, query tile t % 4) the three carried buffers hold the query, key and value projections of batch b,
  and entry (r, d) of the stored tile is the kernel's attention of query row 512·(t % 4) + r of that batch at
  column d.
-/
import proofs.«101153_j85676007621140_2_alg».proof.Proof.KInv
import proofs.«101153_j85676007621140_2_alg».proof.Proof.KPay
import proofs.«101153_j85676007621140_2_alg».proof.Proof.KBlocks

noncomputable section

namespace Cert.KernelIdeal.KTile

open Cert.KernelIdeal Cert.KernelIdeal.Gen Cert.KernelIdeal.KV Idealize.ShloMosaic Idealize.ShloMosaic.TcCoe Idealize.SL.Sem
open Idealize.ShloMosaic.ValueIdx Cert.Attn

variable (m : (ℓ : Loc nD τ sig) → Buf (Elt Ideal) ℓ)

/-- The four argument arrays on core c. -/
abbrev aX (c : Dev nD) : A3 := m ((c : Thread nD τ).loc main_arg0)
abbrev aWq (c : Dev nD) : A2 := m ((c : Thread nD τ).loc main_arg1)
abbrev aWk (c : Dev nD) : A2 := m ((c : Thread nD τ).loc main_arg2)
abbrev aWv (c : Dev nD) : A2 := m ((c : Thread nD τ).loc main_arg3)

/-- The batch a grid point belongs to. -/
def batchOf (n : ℕ) (h : n < cfg0.N) : Fin 4 := ⟨n / 4, by have : cfg0.N = 16 := N_0; omega⟩

/-- The projected rows of batch b under weight W, as a [2048, 1024] array. -/
def projArr (x : A3) (W : A2) (b : Fin 4) : Vec Ideal S2048x1024 .bf16 := fun j => proj x W b (j 0) (j 1)

/-- A projection payload of a point's blocks is the projection of the point's batch. -/
theorem pay2_blocks (c : Dev nD) (t : Fin cfg0.N) :
    k0_pay2 (iblk m c 0 t) (iblk m c 1 t) = projArr (aX m c) (aWq m c) (batchOf t.val t.isLt) := by
  funext j
  obtain ⟨s, e, rfl⟩ : ∃ (s : Fin 2048) (e : Fin 1024), j = ix2 s e := ⟨j 0, j 1, eq_ix2 j⟩
  refine (KPay.pay2_apply (iblk m c 0 t) (iblk m c 1 t) s e).trans ?_
  show _ = proj _ _ _ s e
  unfold proj
  exact Finset.sum_congr rfl fun d _ => by rw [KBlocks.iblk0_apply m c t 0 s d, KBlocks.iblk1_apply m c t d e]; rfl

theorem pay3_blocks (c : Dev nD) (t : Fin cfg0.N) :
    k0_pay3 (iblk m c 0 t) (iblk m c 2 t) = projArr (aX m c) (aWk m c) (batchOf t.val t.isLt) := by
  funext j
  obtain ⟨s, e, rfl⟩ : ∃ (s : Fin 2048) (e : Fin 1024), j = ix2 s e := ⟨j 0, j 1, eq_ix2 j⟩
  refine (KPay.pay3_apply (iblk m c 0 t) (iblk m c 2 t) s e).trans ?_
  show _ = proj _ _ _ s e
  unfold proj
  exact Finset.sum_congr rfl fun d _ => by rw [KBlocks.iblk0_apply m c t 0 s d, KBlocks.iblk2_apply m c t d e]; rfl

theorem pay4_blocks (c : Dev nD) (t : Fin cfg0.N) :
    k0_pay4 (iblk m c 0 t) (iblk m c 3 t) = projArr (aX m c) (aWv m c) (batchOf t.val t.isLt) := by
  funext j
  obtain ⟨s, e, rfl⟩ : ∃ (s : Fin 2048) (e : Fin 1024), j = ix2 s e := ⟨j 0, j 1, eq_ix2 j⟩
  refine (KPay.pay4_apply (iblk m c 0 t) (iblk m c 3 t) s e).trans ?_
  show _ = proj _ _ _ s e
  unfold proj
  exact Finset.sum_congr rfl fun d _ => by rw [KBlocks.iblk0_apply m c t 0 s d, KBlocks.iblk3_apply m c t d e]; rfl

/-- THE INVARIANT: after every point the three carried buffers hold the three projections of the point's batch. -/
theorem buffers (c : Dev nD) : ∀ (n : ℕ) (h : n < cfg0.N),
    (outsAt0 m c n h).2.1 = projArr (aX m c) (aWq m c) (batchOf n h)
    ∧ (outsAt0 m c n h).2.2.1 = projArr (aX m c) (aWk m c) (batchOf n h)
    ∧ (outsAt0 m c n h).2.2.2 = projArr (aX m c) (aWv m c) (batchOf n h)
  | 0, h => by
    rw [show outsAt0 m c 0 h = _ from KInv.outsAt_A m c ⟨0, h⟩ rfl]
    exact ⟨pay2_blocks m c ⟨0, h⟩, pay3_blocks m c ⟨0, h⟩, pay4_blocks m c ⟨0, h⟩⟩
  | n + 1, h => by
    by_cases h0 : (n + 1) % 4 = 0
    · rw [show outsAt0 m c (n + 1) h = _ from KInv.outsAt_A m c ⟨n + 1, h⟩ h0]
      exact ⟨pay2_blocks m c ⟨n + 1, h⟩, pay3_blocks m c ⟨n + 1, h⟩, pay4_blocks m c ⟨n + 1, h⟩⟩
    · rw [show outsAt0 m c (n + 1) h = _ from KInv.outsAt_B m c ⟨n + 1, h⟩ h0]
      have hb : batchOf (n + 1) h = batchOf n (Nat.lt_of_succ_lt h) := Fin.ext (by show (n + 1) / 4 = n / 4; omega)
      rw [hb]
      exact buffers c n (Nat.lt_of_succ_lt h)

/-- The 512 rows a point cuts out of a [2048, 1024] array are rows 512·(t % 4) … of it. -/
theorem qrows_apply (t : Fin cfg0.N) (Q : Vec Ideal S2048x1024 .bf16) (r : Fin 512) (e : Fin 1024) (q : Fin 2048)
    (hq : q.val = 512 * (t.val % 4) + r.val) : qrows (grid0.coords t) Q (ix2 r e) = Q (ix2 q e) := by
  unfold qrows
  show Q _ = Q _
  refine congrArg Q (funext fun a => Fin.ext ?_)
  match a with
  | ⟨0, _⟩ =>
    show k0_off1 (grid0.coords t) 0 + 1 * r.val = q.val
    rw [show k0_off1 (grid0.coords t) 0 = 512 * (t.val % 4) from congrFun (KBlocks.off1 t) 0]; omega
  | ⟨1, _⟩ =>
    show k0_off1 (grid0.coords t) 1 + 1 * e.val = e.val
    rw [show k0_off1 (grid0.coords t) 1 = 0 from congrFun (KBlocks.off1 t) 1]; omega

/-- THE POINT FACT: entry (u, r, d) of the tile point t stores is the kernel-form attention at batch t / 4,
    query row 512·(t % 4) + r, column d. -/
theorem tile_apply (c : Dev nD) (t : Fin cfg0.N) (u : Fin 1) (r : Fin 512) (d : Fin 1024) (b : Fin 4) (q : Fin 2048)
    (hb : b.val = t.val / 4) (hq : q.val = 512 * (t.val % 4) + r.val) :
    ((outsAt0 m c t.val t.isLt).1 : Vec Ideal S1x512x1024 .f32) (ix3 u r d)
      = outK (aX m c) (aWq m c) (aWk m c) (aWv m c) b q d := by
  obtain ⟨hQ, hK, hV⟩ := buffers m c t.val t.isLt
  have hbb : batchOf t.val t.isLt = b := Fin.ext hb.symm
  rw [KInv.tile_of_buffers m c t, hQ, hK, hV, hbb]
  refine (KPay.pay5_apply (qrows (grid0.coords t) (projArr (aX m c) (aWq m c) b)) (projArr (aX m c) (aWk m c) b)
    (projArr (aX m c) (aWv m c) b) u r d).trans ?_
  have e1 : (fun e : Fin 1024 => qrows (grid0.coords t) (projArr (aX m c) (aWq m c) b) (ix2 r e))
      = fun e => proj (aX m c) (aWq m c) b q e := funext fun e => qrows_apply t _ r e q hq
  rw [e1]
  rfl

end Cert.KernelIdeal.KTile

end
-- ==== Proof.KCover.lean ====
/-
  The output array [4, 2048, 1024] is tiled by the blocks [1, 512, 1024] of the 16 grid points:
  point t = 4·b + r (b = t / 4, r = t % 4) owns block index (b, r, 0), that is rows
  512·r … 512·r + 511 of batch b, all columns. So index (i0, i1, i2) lies in the block of exactly
  the point 4·i0 + i1 / 512, and every index is covered.
-/
import proofs.«101153_j85676007621140_2_alg».proof.Proof.Gen.KernelIdeal.Frame
import Idealize.ShloMosaic.Lib.Pipeline.Value

noncomputable section

namespace Cert.KernelIdeal.KCover

open Cert.KernelIdeal Cert.KernelIdeal.Gen Idealize.ShloMosaic Idealize.ShloMosaic.TcCoe Idealize.SL.Sem

/-- The block index of point t is (t / 4, t % 4, 0), decided over the 16 points. -/
theorem idx4 : ∀ t : Fin cfg0.N, win0_4.index t 0 = t.val / 4 ∧ win0_4.index t 1 = t.val % 4 ∧ win0_4.index t 2 = 0 :=
  (by decide +kernel : ∀ t : Fin grid0.N, _)

/-- An index is in point t's block iff each coordinate is in the block's range on its axis. -/
theorem mem_blk4_axes (t : Fin cfg0.N) (i : S4x2048x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v7).slice (win0_4.rect t)).set ↔ _
  rw [View.set_slice_whole, Rect.mem_set_unit]
  exact Iff.rfl

/-- Point t's block is batch t / 4, rows 512·(t % 4) … 512·(t % 4) + 511, every column. -/
theorem mem_blk4 (t : Fin cfg0.N) (i : S4x2048x1024.Idx) :
    i ∈ ((cfg0.win 4).blk t).view.set ↔ ((i 0).val = t.val / 4 ∧ 512 * (t.val % 4) ≤ (i 1).val ∧ (i 1).val < 512 * (t.val % 4) + 512) := by
  rw [mem_blk4_axes]
  obtain ⟨e0, e1, e2⟩ := idx4 t
  have h0 : (i 0).val < 4 := (i 0).isLt
  have h1 : (i 1).val < 2048 := (i 1).isLt
  have h2 : (i 2).val < 1024 := (i 2).isLt
  constructor
  · intro h
    have b0 : win0_4.index t 0 * 1 ≤ (i 0).val ∧ (i 0).val < win0_4.index t 0 * 1 + 1 := h 0
    have b1 : win0_4.index t 1 * 512 ≤ (i 1).val ∧ (i 1).val < win0_4.index t 1 * 512 + 512 := h 1
    omega
  · intro h a
    match a with
    | ⟨0, _⟩ => show win0_4.index t 0 * 1 ≤ (i 0).val ∧ (i 0).val < win0_4.index t 0 * 1 + 1; omega
    | ⟨1, _⟩ => show win0_4.index t 1 * 512 ≤ (i 1).val ∧ (i 1).val < win0_4.index t 1 * 512 + 512; omega
    | ⟨2, _⟩ => show win0_4.index t 2 * 1024 ≤ (i 2).val ∧ (i 2).val < win0_4.index t 2 * 1024 + 1024; omega

/-- Every index (i0, i1, i2) of the array is in the block of the point 4·i0 + i1 / 512, which writes back. -/
theorem cover4 (i : S4x2048x1024.Idx) :
    ∃ t : Fin cfg0.N, (cfg0.win 4).flush t = true ∧ i ∈ ((cfg0.win 4).blk t).view.set := by
  have h0 : (i 0).val < 4 := (i 0).isLt
  have h1 : (i 1).val < 2048 := (i 1).isLt
  have hN : cfg0.N = 16 := N_0
  refine ⟨⟨4 * (i 0).val + (i 1).val / 512, by rw [hN]; omega⟩, flush0_4 _, ?_⟩
  rw [mem_blk4]
  show (i 0).val = (4 * (i 0).val + (i 1).val / 512) / 4
    ∧ 512 * ((4 * (i 0).val + (i 1).val / 512) % 4) ≤ (i 1).val
    ∧ (i 1).val < 512 * ((4 * (i 0).val + (i 1).val / 512) % 4) + 512
  omega

end Cert.KernelIdeal.KCover

end
-- ==== Proof.KFinal.lean ====
/-
  From what each grid point leaves in the output's staging buffer to the whole result array. Point t
  writes its staging contents back to block (t / 4, t % 4, 0) of the [4, 2048, 1024] array: element
  (u, r, d) of the block lands at (t / 4 + u, 512·(t % 4) + r, d) with u = 0. If the staging contents
  there are the attention entry of batch t / 4, row 512·(t % 4) + r, column d, then each written
  block is that block of the one function `result`; the 16 blocks cover the array, so the array ends
  equal to `result` everywhere, and the run leaves the four argument arrays as launched.
-/
import proofs.«101153_j85676007621140_2_alg».proof.Proof.Gen.KernelIdeal.Value
import proofs.«101153_j85676007621140_2_alg».proof.Proof.KCover
import proofs.«101153_j85676007621140_2_alg».proof.Proof.Spec
import Idealize.ShloMosaic.Lib.Pipeline.Value
import Idealize.ShloMosaic.Lib.ValueIdx

noncomputable section

namespace Cert.KernelIdeal.KFinal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array as one function of the four argument arrays. -/
def result (c : Dev nD) : S4x2048x1024.Idx → EReal := fun i =>
  Cert.Attn.outK (m ((c : Thread nD τ).loc main_arg0)) (m ((c : Thread nD τ).loc main_arg1))
    (m ((c : Thread nD τ).loc main_arg2)) (m ((c : Thread nD τ).loc main_arg3)) (i 0) (i 1) (i 2)

/-- Point t's staging contents at (u, r, d) is the result at batch t / 4, row 512·(t % 4) + r, column d. -/
def PointFact (c : Dev nD) : Prop :=
  ∀ (t : Fin cfg0.N) (u : Fin 1) (r : Fin 512) (d : Fin 1024) (b : Fin 4) (q : Fin 2048),
    b.val = t.val / 4 → q.val = 512 * (t.val % 4) + r.val →
    ((outsAt0 m c t.val t.isLt).1 : Vec Ideal S1x512x1024 .f32) (ix3 u r d)
      = Cert.Attn.outK (m ((c : Thread nD τ).loc main_arg0)) (m ((c : Thread nD τ).loc main_arg1))
          (m ((c : Thread nD τ).loc main_arg2)) (m ((c : Thread nD τ).loc main_arg3)) b q d

/-- What point t writes back is block t of `result`: element (u, r, d) of the block sits in the array at
    (t / 4, 512·(t % 4) + r, d), the first block extent being 1. -/
theorem flushed_eq (c : Dev nD) (hp : PointFact m c) (t : Fin cfg0.N) :
    (dats m 0 c).flushed 4 t = ((cfg0.win 4).blk t).view.read (Elt Ideal) (result m c) := by
  rw [Cert.KernelIdeal.Value.flushed4 m c t]
  funext y
  rw [View.read_apply]
  obtain ⟨u, r, d, rfl⟩ : ∃ (u : Fin 1) (r : Fin 512) (d : Fin 1024), y = ix3 u r d :=
    ⟨y 0, y 1, y 2, eq_ix3 (n0 := 1) (n1 := 512) (n2 := 1024) y⟩
  have hN : cfg0.N = 16 := N_0
  have ht : t.val < cfg0.N := t.isLt
  have hu : u.val < 1 := u.isLt
  have hr : r.val < 512 := r.isLt
  obtain ⟨e0, e1, e2⟩ := KCover.idx4 t
  have hb : t.val / 4 < 4 := by omega
  have hq : 512 * (t.val % 4) + r.val < 2048 := by omega
  have key := hp t u r d ⟨t.val / 4, hb⟩ ⟨512 * (t.val % 4) + r.val, hq⟩ rfl rfl
  have hidx : ((cfg0.win 4).blk t).view.emb (ix3 u r d)
      = ix3 (⟨t.val / 4, hb⟩ : Fin 4) (⟨512 * (t.val % 4) + r.val, hq⟩ : Fin 2048) d := by
    funext a; apply Fin.ext
    match a with
    | ⟨0, _⟩ => show win0_4.index t 0 * 1 + 1 * u.val = t.val / 4; omega
    | ⟨1, _⟩ => show win0_4.index t 1 * 512 + 1 * r.val = 512 * (t.val % 4) + r.val; omega
    | ⟨2, _⟩ => show win0_4.index t 2 * 1024 + 1 * d.val = d.val; omega
  show ((outsAt0 m c t.val t.isLt).1 : Vec Ideal S1x512x1024 .f32) (ix3 u r d)
    = result m c (((cfg0.win 4).blk t).view.emb (ix3 u r d))
  rw [hidx]
  exact key

/-- The 16 blocks cover the array, so it ends holding `result`. -/
theorem final4 (c : Dev nD) (hp : PointFact m c) : (dats m 0 c).arrAt 4 cfg0.N = result m c :=
  (dats m 0 c).arrAt_eq_of_cover 4 (result m c) (fun t _ => flushed_eq m c hp t) (fun i => KCover.cover4 i)

/-- The run, read: the result array at `result`, the four arguments unchanged. -/
theorem run (hp : ∀ c, PointFact m c) :
    θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hp c)), (h c).2⟩)
    (Cert.KernelIdeal.Value.run_blocks m ρ)

end Cert.KernelIdeal.KFinal

end
-- ==== Proof.RefRead.lean ====
/-
  The reference program read at an index is the reference form of single-head attention: stage by stage,
  the three projections are the sums proj, the batched product of the query and key projections is dotQK,
  its quotient by √1024 is scoreR, the maximum over the key axis (folded from −∞, then joined with −∞ once
  more) is maxR, the exponentials of the shifted scores are summed from the literal 0, each exponential is
  divided by that sum, and the quotients weigh the value projection: outR.
-/
import proofs.«101153_j85676007621140_2_alg».proof.Proof.Gen.ReferenceIdeal.Read
import proofs.«101153_j85676007621140_2_alg».proof.Proof.Spec

noncomputable section

namespace Cert.RefRead

open Idealize.ShloMosaic Idealize.ShloMosaic.ValueIdx Cert.ReferenceIdeal Cert.ReferenceIdeal.Gen Cert.ReferenceIdeal.Read Cert.Attn

variable (x0 : (⟨S4x2048x1024, .f32⟩ : BufTy).Contents (Elt Ideal)) (x1 x2 x3 : (⟨S1024x1024, .f32⟩ : BufTy).Contents (Elt Ideal))

/-! ### The index maps of the stages, at an index given by its coordinates -/

theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 2048) (e k : Fin 1024) : ridx_main_v0 (ix3 b s e) k = ix2 e k :=
  funext fun a => Fin.ext (by match a with | ⟨0, _⟩ => rfl | ⟨1, _⟩ => rfl)
theorem lidx_v3 (b : Fin 4) (q k : Fin 2048) (d : Fin 1024) : lidx_main_v3 (ix3 b q k) d = ix3 b q d :=
  funext fun a => Fin.ext (by match a with | ⟨0, _⟩ => rfl | ⟨1, _⟩ => rfl | ⟨2, _⟩ => rfl)
theorem ridx_v3 (b : Fin 4) (q k : Fin 2048) (d : Fin 1024) : ridx_main_v3 (ix3 b q k) d = ix3 b k d :=
  funext fun a => Fin.ext (by match a with | ⟨0, _⟩ => rfl | ⟨1, _⟩ => rfl | ⟨2, _⟩ => rfl)
theorem idx_v10_v11 (b : Fin 4) (q k : Fin 2048) : idx_main_v10 (idx_main_v11 (ix3 b q k)) = ix2 b q :=
  funext fun a => Fin.ext (by match a with | ⟨0, _⟩ => rfl | ⟨1, _⟩ => rfl)
theorem idx_v15_v16 (b : Fin 4) (q k : Fin 2048) : idx_main_v15 (idx_main_v16 (ix3 b q k)) = ix2 b q :=
  funext fun a => Fin.ext (by match a with | ⟨0, _⟩ => rfl | ⟨1, _⟩ => rfl)
theorem idx_v14 (b : Fin 4) (q k : Fin 2048) : idx_main_v14 (ix2 b q) k = ix3 b q k :=
  funext fun a => Fin.ext (by match a with | ⟨0, _⟩ => rfl | ⟨1, _⟩ => rfl | ⟨2, _⟩ => rfl)
theorem lidx_v18 (b : Fin 4) (q k : Fin 2048) (d : Fin 1024) : lidx_main_v18 (ix3 b q d) k = ix3 b q k :=
  funext fun a => Fin.ext (by match a with | ⟨0, _⟩ => rfl | ⟨1, _⟩ => rfl | ⟨2, _⟩ => rfl)
theorem ridx_v18 (b : Fin 4) (q k : Fin 2048) (d : Fin 1024) : ridx_main_v18 (ix3 b q d) k = ix3 b k d :=
  funext fun a => Fin.ext (by match a with | ⟨0, _⟩ => rfl | ⟨1, _⟩ => rfl | ⟨2, _⟩ => rfl)

/-! ### The stages -/

/-- The three projections. -/
theorem v0_eq (b : Fin 4) (s : Fin 2048) (e : Fin 1024) : val_main_v0 (F := Ideal) x0 x1 (ix3 b s e) = proj x0 x1 b s e := by
  rw [val_main_v0_apply]
  unfold proj
  refine Finset.sum_congr rfl fun k _ => ?_
  rw [lidx_v0, ridx_v0]
theorem v1_eq (b : Fin 4) (s : Fin 2048) (e : Fin 1024) : val_main_v1 (F := Ideal) x0 x2 (ix3 b s e) = proj x0 x2 b s e := by
  rw [val_main_v1_apply]
  unfold proj
  refine Finset.sum_congr rfl fun k _ => ?_
  exact congrArg₂ (· * ·) (congrArg x0 (lidx_v0 b s e k)) (congrArg x2 (ridx_v0 b s e k))
theorem v2_eq (b : Fin 4) (s : Fin 2048) (e : Fin 1024) : val_main_v2 (F := Ideal) x0 x3 (ix3 b s e) = proj x0 x3 b s e := by
  rw [val_main_v2_apply]
  unfold proj
  refine Finset.sum_congr rfl fun k _ => ?_
  exact congrArg₂ (· * ·) (congrArg x0 (lidx_v0 b s e k)) (congrArg x3 (ridx_v0 b s e k))

/-- The raw scores. -/
theorem v3_eq (b : Fin 4) (q k : Fin 2048) : val_main_v3 (F := Ideal) x0 x1 x2 (ix3 b q k) = dotQK x0 x1 x2 b q k := by
  rw [val_main_v3_apply]
  unfold dotQK
  refine Finset.sum_congr rfl fun d _ => ?_
  rw [lidx_v3, ridx_v3, v0_eq, v1_eq]

/-- The divisor: √1024, the same at every index. -/
theorem v5_eq (i : S4x2048x2048.Idx) : val_main_v5 (F := Ideal) i = Ideal.sqrt dmodel := by
  rw [val_main_v5_apply, val_main_v4_apply, val_main_cst_apply]
  rfl

/-- The scores. -/
theorem v6_eq (b : Fin 4) (q k : Fin 2048) : val_main_v6 (F := Ideal) x0 x1 x2 (ix3 b q k) = scoreR x0 x1 x2 b q k := by
  rw [val_main_v6_apply, v3_eq, v5_eq]
  rfl

/-- The maximum over the key axis, folded from −∞. -/
theorem v7_eq (b : Fin 4) (q : Fin 2048) : val_main_v7 (F := Ideal) x0 x1 x2 (ix2 b q) = rowMax (scoreR x0 x1 x2 b q) := by
  have h : S4x2048x2048.Reduces [2] S4x2048 := by decide
  have key : ∀ y : S4x2048x2048.Idx → Ideal .f32,
      Host.reduce FloatOps.maximumf y (val_main_cst_0 (F := Ideal)) reducesTo_S4x2048x2048_S4x2048_d2 h_S_ (ix2 b q)
        = (Finset.univ : Finset (Fin 2048)).fold max negInf (fun k => y (ix3 b q k)) := by
    intro y
    rw [Host.reduce_eq_fold_single FloatOps.maximumf y _ reducesTo_S4x2048x2048_S4x2048_d2 h h_S_ (ix2 b q)]
    have e : y ∘ h.lift (ix2 b q) = fun k => y (ix3 b q k) :=
      funext fun k => congrArg y (funext fun a => Fin.ext (by match a with | ⟨0, _⟩ => rfl | ⟨1, _⟩ => rfl | ⟨2, _⟩ => rfl))
    rw [e]
    rfl
  unfold val_main_v7 rowMax
  rw [key]
  exact congrArg (fun f => (Finset.univ : Finset (Fin 2048)).fold max negInf f) (funext fun k => v6_eq x0 x1 x2 b q k)

/-- The row maximum as the reference takes it. -/
theorem v9_eq (b : Fin 4) (q : Fin 2048) : val_main_v9 (F := Ideal) x0 x1 x2 (ix2 b q) = maxR x0 x1 x2 b q := by
  rw [val_main_v9_apply, val_main_v8_apply, val_main_cst_1_apply, v7_eq]
  rfl

theorem v11_eq (b : Fin 4) (q k : Fin 2048) : val_main_v11 (F := Ideal) x0 x1 x2 (ix3 b q k) = maxR x0 x1 x2 b q := by
  rw [val_main_v11_apply, val_main_v10_apply, idx_v10_v11, v9_eq]

/-- The exponentials of the shifted scores. -/
theorem v13_eq (b : Fin 4) (q k : Fin 2048) :
    val_main_v13 (F := Ideal) x0 x1 x2 (ix3 b q k) = Ideal.exp (scoreR x0 x1 x2 b q k - maxR x0 x1 x2 b q) := by
  rw [val_main_v13_apply, val_main_v12_apply, v6_eq, v11_eq]
  rfl

/-- Their sum over the key axis, from the literal 0. -/
theorem v14_eq (b : Fin 4) (q : Fin 2048) :
    val_main_v14 (F := Ideal) x0 x1 x2 (ix2 b q)
      = zero + ∑ k' : Fin 2048, Ideal.exp (scoreR x0 x1 x2 b q k' - maxR x0 x1 x2 b q) := by
  rw [val_main_v14_apply, val_main_cst_2_apply]
  refine congrArg₂ (· + ·) rfl (Finset.sum_congr rfl fun k _ => ?_)
  rw [idx_v14, v13_eq]

theorem v16_eq (b : Fin 4) (q k : Fin 2048) :
    val_main_v16 (F := Ideal) x0 x1 x2 (ix3 b q k)
      = zero + ∑ k' : Fin 2048, Ideal.exp (scoreR x0 x1 x2 b q k' - maxR x0 x1 x2 b q) := by
  rw [val_main_v16_apply, val_main_v15_apply, idx_v15_v16, v14_eq]

/-- The weights. -/
theorem v17_eq (b : Fin 4) (q k : Fin 2048) :
    val_main_v17 (F := Ideal) x0 x1 x2 (ix3 b q k)
      = Ideal.div (Ideal.exp (scoreR x0 x1 x2 b q k - maxR x0 x1 x2 b q))
          (zero + ∑ k' : Fin 2048, Ideal.exp (scoreR x0 x1 x2 b q k' - maxR x0 x1 x2 b q)) := by
  rw [val_main_v17_apply, v13_eq, v16_eq]
  rfl

/-- The reference's result at (b, q, d) is the reference form of the output entry. -/
theorem val_eq (b : Fin 4) (q : Fin 2048) (d : Fin 1024) :
    Cert.ReferenceIdeal.Read.val_main_v18 (F := Ideal) x0 x1 x2 x3 (ix3 b q d) = Cert.Attn.outR x0 x1 x2 x3 b q d := by
  rw [val_main_v18_apply]
  unfold outR
  refine Finset.sum_congr rfl fun k _ => ?_
  rw [lidx_v18, ridx_v18, v17_eq, v2_eq]

end Cert.RefRead

end
-- ==== Proof.SoftmaxLaw.lean ====
/-
  The softmax law behind single-head attention over the extended reals. When every input entry is a
  real number, every projection, raw score and scaled score is real; the row maximum of finitely many
  reals is one of them; each exponential of a shifted score is a positive real and so is their sum L.
  Dividing by L is then multiplying by the nonnegative real 1/L, and multiplication by a nonnegative
  real distributes over any finite extended-real sum. Hence dividing each exponential by L before
  weighing the value rows gives the same entry as dividing the weighted sum once by L. Dividing a
  score by √1024 = 32 and multiplying it by 2⁻⁵ are the same operation on every extended real.
-/
import proofs.«101153_j85676007621140_2_alg».proof.Proof.Spec

noncomputable section

namespace Cert.Attn

open Idealize.ShloMosaic Idealize.ShloMosaic.ValueIdx

/-! ### The four literals -/

/-- The pattern with sign 1, exponent all ones and zero fraction is −∞. -/
theorem negInf_eq : negInf = ⊥ := by
  simp [negInf, Ideal.ofBits, Ideal.ieee]

/-- The all-zero pattern is 0. -/
theorem zero_eq : zero = 0 := by
  simp [zero, Ideal.ofBits, Ideal.ieee]

/-- Exponent field 122 with zero fraction: 2²³ · 2⁻²⁸ = 1/32. -/
theorem scale_eq : scale = ((1 / 32 : ℝ) : EReal) := by
  simp [scale, Ideal.ofBits, Ideal.ieee]
  rw [← EReal.coe_mul]
  congr 1
  norm_num

/-- Exponent field 137 with zero fraction: 2²³ · 2⁻¹³ = 1024. -/
theorem dmodel_eq : dmodel = ((1024 : ℝ) : EReal) := by
  simp [dmodel, Ideal.ofBits, Ideal.ieee]
  rw [← EReal.coe_mul]
  congr 1
  norm_num

/-- √1024 = 32, since 1024 = 32². -/
theorem sqrt_dmodel_eq : Ideal.sqrt dmodel = ((32 : ℝ) : EReal) := by
  rw [dmodel_eq, Ideal.sqrt_coe, if_neg (by norm_num)]
  congr 1
  rw [show (1024 : ℝ) = 32 ^ 2 by norm_num]
  exact Real.sqrt_sq (by norm_num)

/-! ### Real values are closed under products, finite sums and nonempty finite maxima -/

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of reals is real. -/
theorem real_sum {ι : Type*} (s : Finset ι) (f : ι → EReal)
    (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨t, ht⟩ := ih (fun i hi => h i (Finset.mem_insert_of_mem hi))
    exact ⟨r + t, by rw [Finset.sum_insert ha, hr, ht, EReal.coe_add]⟩

/-- The inclusion of the reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum, folded from −∞, of a nonempty finite family of reals is one of them, hence real. -/
theorem real_foldMax {ι : Type*} (s : Finset ι) (f : ι → EReal) (hs : s.Nonempty)
    (h : ∀ i ∈ s, ∃ r : ℝ, f i = (r : EReal)) : ∃ r : ℝ, s.fold max ⊥ f = (r : EReal) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]
      exact h a (Finset.mem_insert_self a _)
    · obtain ⟨t, ht⟩ := ih hne (fun i hi => h i (Finset.mem_insert_of_mem hi))
      rcases max_choice (f a) (s.fold max ⊥ f) with hm | hm
      · rw [hm]; exact h a (Finset.mem_insert_self a _)
      · rw [hm]; exact ⟨t, ht⟩

/-- Multiplication by a nonnegative real distributes over any finite extended-real sum. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-! ### The law: normalise each weight, or normalise the weighted sum once -/

/-- For real scores `s k`, a real shift `m` and ARBITRARY extended-real values `v k` over a nonempty
    finite index type: with e k = exp (s k − m) > 0 and L = ∑ e k > 0,
    ∑ k, (e k / (0 + L)) · v k = (∑ k, e k · v k) / L. -/
theorem softmax_law {ι : Type*} [Fintype ι] [Nonempty ι] (s : ι → ℝ) (m : ℝ) (v : ι → EReal) :
    ∑ k, Ideal.div (Ideal.exp ((s k : EReal) - (m : EReal)))
        (zero + ∑ k', Ideal.exp ((s k' : EReal) - (m : EReal))) * v k
      = Ideal.div (∑ k, Ideal.exp ((s k : EReal) - (m : EReal)) * v k)
          (∑ k, Ideal.exp ((s k : EReal) - (m : EReal))) := by
  have he : ∀ k, Ideal.exp ((s k : EReal) - (m : EReal)) = ((Real.exp (s k - m) : ℝ) : EReal) :=
    fun k => by rw [← EReal.coe_sub, Ideal.exp_coe]
  simp only [he]
  rw [coe_sum, zero_eq, zero_add]
  have hL : 0 < ∑ k, Real.exp (s k - m) :=
    Finset.sum_pos (fun k _ => Real.exp_pos _) Finset.univ_nonempty
  simp only [Ideal.div_coe hL.ne']
  rw [sum_mul_coe _ _ (by positivity : (0 : ℝ) ≤ 1 / ∑ k, Real.exp (s k - m))]
  exact Finset.sum_congr rfl (fun k _ => mul_right_comm _ _ _)

/-! ### The two forms of attention -/

/-- Dividing by √1024 is multiplying by 2⁻⁵, on every extended real. -/
theorem scoreR_eq_scoreK (x : A3) (Wq Wk : A2) (b : Fin 4) (q k : Fin 2048) :
    scoreR x Wq Wk b q k = scoreK x Wq Wk b q k := by
  unfold scoreR scoreK
  rw [sqrt_dmodel_eq, Ideal.div_coe (by norm_num : (32 : ℝ) ≠ 0), scale_eq]

/-- Joining −∞ once more changes nothing, so the two row maxima agree. -/
theorem maxR_eq (x : A3) (Wq Wk : A2) (b : Fin 4) (q : Fin 2048) :
    maxR x Wq Wk b q = rowMax (scoreK x Wq Wk b q) := by
  have h : scoreR x Wq Wk b q = scoreK x Wq Wk b q := funext (scoreR_eq_scoreK x Wq Wk b q)
  unfold maxR
  rw [negInf_eq, max_eq_right bot_le, h]

/-- A projection of real arrays is real. -/
theorem real_proj (x : A3) (W : A2) (hx : ∀ i, ∃ r : ℝ, x i = (r : EReal))
    (hW : ∀ i, ∃ r : ℝ, W i = (r : EReal)) (b : Fin 4) (s : Fin 2048) (e : Fin 1024) :
    ∃ r : ℝ, proj x W b s e = (r : EReal) :=
  real_sum _ _ (fun _ _ => real_mul (hx _) (hW _))

/-- A scaled score of real arrays is real. -/
theorem real_scoreK (x : A3) (Wq Wk : A2) (hx : ∀ i, ∃ r : ℝ, x i = (r : EReal))
    (hq : ∀ i, ∃ r : ℝ, Wq i = (r : EReal)) (hk : ∀ i, ∃ r : ℝ, Wk i = (r : EReal))
    (b : Fin 4) (q k : Fin 2048) : ∃ r : ℝ, scoreK x Wq Wk b q k = (r : EReal) := by
  unfold scoreK dotQK
  exact real_mul (real_sum _ _ (fun _ _ => real_mul (real_proj x Wq hx hq _ _ _) (real_proj x Wk hx hk _ _ _)))
    ⟨1 / 32, scale_eq⟩

/-- With real inputs the reference's output entry is the kernel's. -/
theorem outR_eq_outK (x : A3) (Wq Wk Wv : A2)
    (hx : ∀ i, ∃ r : ℝ, x i = (r : EReal)) (hq : ∀ i, ∃ r : ℝ, Wq i = (r : EReal))
    (hk : ∀ i, ∃ r : ℝ, Wk i = (r : EReal)) (hv : ∀ i, ∃ r : ℝ, Wv i = (r : EReal))
    (b : Fin 4) (q : Fin 2048) (d : Fin 1024) :
    outR x Wq Wk Wv b q d = outK x Wq Wk Wv b q d := by
  have hs : ∀ k, ∃ r : ℝ, scoreK x Wq Wk b q k = (r : EReal) := real_scoreK x Wq Wk hx hq hk b q
  choose s hs using hs
  obtain ⟨m, hm⟩ : ∃ m : ℝ, rowMax (scoreK x Wq Wk b q) = (m : EReal) := by
    unfold rowMax
    rw [negInf_eq]
    exact real_foldMax _ _ Finset.univ_nonempty (fun k _ => ⟨s k, hs k⟩)
  unfold outR outK
  simp only [scoreR_eq_scoreK, maxR_eq, hm, hs]
  exact softmax_law s m (fun k => proj x Wv b k d)

end Cert.Attn

end
-- ==== Proof.Finite.lean ====
/-
  The precondition "every input entry is finite", read back: the printed predicate compares |x| with +∞
  entry by entry, takes the conjunction over each array and the conjunction of the four results. When the
  predicate holds, every entry of every array has absolute value below +∞, and an extended real whose
  absolute value max x (−x) is below +∞ is neither −∞ nor +∞: it is a real number.
-/
import proofs.«101153_j85676007621140_2_alg».proof.Pre_finite_inputs
import proofs.«101153_j85676007621140_2_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Cert.Pre_finite_inputs

/-- The rank-0 shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real with max x (−x) < +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

theorem real_of_pre [Cert.Pre_finite_inputs.Facts] (x0 : FVec Ideal Cert.Pre_finite_inputs.S4x2048x1024 .f32)
    (x1 x2 x3 : FVec Ideal Cert.Pre_finite_inputs.S1024x1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) := by
  have e := congrFun h ValueIdx.ix0
  dsimp only [Cert.Pre_finite_inputs.fn, Cert.Pre_finite_inputs.fn_part1, andi] at e
  rw [IntOp.andi_eq_one, IntOp.andi_eq_one, IntOp.andi_eq_one] at e
  obtain ⟨⟨⟨e0, e1⟩, e2⟩, e3⟩ := e
  refine ⟨fun i => ?_, fun i => ?_, fun i => ?_, fun i => ?_⟩
  · exact real_of_abs_lt _ (Host.reduce_andi_all _ _ _ _ _ e0 i)
  · exact real_of_abs_lt _ (Host.reduce_andi_all _ _ _ _ _ e1 i)
  · exact real_of_abs_lt _ (Host.reduce_andi_all _ _ _ _ _ e2 i)
  · exact real_of_abs_lt _ (Host.reduce_andi_all _ _ _ _ _ e3 i)

end Cert.Finite
-- ==== Proof.lean ====
/-
  Single-head attention, computed two ways over the extended reals. The kernel computes, per batch,
  softmax(Q Kᵀ · 2⁻⁵) V tile by tile of 512 query rows: the three projections of the batch are kept in three
  buffers, refilled at the batch's first query tile; the exponentials of the shifted scores weigh the value
  rows, and the weighted sum is divided once, at the end, by the sum of the exponentials. The reference
  divides the scores by √1024, subtracts the row maximum, and divides each exponential by 0 + the row's sum
  before weighing the value rows. With finite inputs the two agree entry by entry: every score is a real
  number, x · 2⁻⁵ = x / 32 = x / √1024, the row sum L of exponentials is a positive real, and multiplication
  by the positive real 1 / L distributes over the finite sum, so Σₖ (eₖ / L) · vₖ = (Σₖ eₖ · vₖ) / L.
  Both programs run, leave their arguments unchanged, and end with that one array as their result.
-/
import proofs.«101153_j85676007621140_2_alg».proof.Defs
import proofs.«101153_j85676007621140_2_alg».proof.Proof.Gen.Kernel
import proofs.«101153_j85676007621140_2_alg».proof.Proof.Gen.Kernel.Skeleton
import proofs.«101153_j85676007621140_2_alg».proof.Proof.Gen.Kernel.Launch
import proofs.«101153_j85676007621140_2_alg».proof.Proof.Gen.Kernel.Points
import proofs.«101153_j85676007621140_2_alg».proof.Proof.Gen.Kernel.Frame
import proofs.«101153_j85676007621140_2_alg».proof.Proof.Gen.KernelIdeal
import proofs.«101153_j85676007621140_2_alg».proof.Proof.Gen.KernelIdeal.Skeleton
import proofs.«101153_j85676007621140_2_alg».proof.Proof.Gen.KernelIdeal.Launch
import proofs.«101153_j85676007621140_2_alg».proof.Proof.Gen.KernelIdeal.Points
import proofs.«101153_j85676007621140_2_alg».proof.Proof.Gen.KernelIdeal.Frame
import proofs.«101153_j85676007621140_2_alg».proof.Proof.Gen.ReferenceIdeal
import proofs.«101153_j85676007621140_2_alg».proof.Proof.Gen.Pre_finite_inputs
import proofs.«101153_j85676007621140_2_alg».proof.Proof.Gen.KernelIdeal.Value
import proofs.«101153_j85676007621140_2_alg».proof.Proof.Gen.ReferenceIdeal.Run
import proofs.«101153_j85676007621140_2_alg».proof.Proof.Gen.ReferenceIdeal.Read
import proofs.«101153_j85676007621140_2_alg».proof.Proof.KTile
import proofs.«101153_j85676007621140_2_alg».proof.Proof.KFinal
import proofs.«101153_j85676007621140_2_alg».proof.Proof.RefRead
import proofs.«101153_j85676007621140_2_alg».proof.Proof.SoftmaxLaw
import proofs.«101153_j85676007621140_2_alg».proof.Proof.Finite
import Idealize.ShloMosaic.Adequacy
import Idealize.ShloMosaic.Init

noncomputable section

namespace Cert.Proof

open Idealize.ShloMosaic Idealize.SL.Sem Idealize.ShloMosaic.ValueIdx

/-! ### The three programs run and leave their arguments unchanged -/

theorem frame_Kernel : Cert.frame_Kernel := fun m ρ _ => Cert.Kernel.Gen.frame m ρ
theorem frame_KernelIdeal : Cert.frame_KernelIdeal := fun m ρ _ => Cert.KernelIdeal.Gen.frame m ρ
theorem frame_ReferenceIdeal : Cert.frame_ReferenceIdeal := fun m ρ _ =>
  (θ_run Cert.ReferenceIdeal.defs _ _).mono (fun _ h c => (h c).2) (Cert.ReferenceIdeal.Value.run (F := Ideal) m ρ)

/-! ### The two results are one array -/

/-- With real inputs the reference's result array holds, at (b, q, d), the kernel's form of the output entry. -/
theorem reference_eq (x : Cert.Attn.A3) (Wq Wk Wv : Cert.Attn.A2)
    (hx : ∀ i, ∃ r : ℝ, x i = (r : EReal)) (hq : ∀ i, ∃ r : ℝ, Wq i = (r : EReal))
    (hk : ∀ i, ∃ r : ℝ, Wk i = (r : EReal)) (hv : ∀ i, ∃ r : ℝ, Wv i = (r : EReal)) :
    (Cert.ReferenceIdeal.Read.val_main_v18 (F := Ideal) x Wq Wk Wv : Cert.ReferenceIdeal.S4x2048x1024.Idx → EReal)
      = fun i => Cert.Attn.outK x Wq Wk Wv (i 0) (i 1) (i 2) := by
  funext i
  obtain ⟨b, q, d, rfl⟩ : ∃ (b : Fin 4) (q : Fin 2048) (d : Fin 1024), i = ix3 b q d := ⟨i 0, i 1, i 2, eq_ix3 i⟩
  rw [Cert.RefRead.val_eq, Cert.Attn.outR_eq_outK x Wq Wk Wv hx hq hk hv]

/-- From memories that agree on the four arguments, both programs run, end with the same result array — the
    kernel's form of the output entries — and leave their arguments unchanged. -/
theorem algebraic : Cert.algebraic_KernelIdeal_ReferenceIdeal := by
  intro m ρ m' ρ' hpre hagree
  refine ⟨fun c => Cert.KernelIdeal.KFinal.result m c,
    Cert.KernelIdeal.KFinal.run m ρ (fun c t u r d b q hb hq => Cert.KernelIdeal.KTile.tile_apply m c t u r d b q hb hq), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2]
  obtain ⟨hx, hq, hk, hv⟩ := Cert.Finite.real_of_pre _ _ _ _ (hpre c)
  exact reference_eq _ _ _ _ hx hq hk hv

theorem claim : Cert.Claim := ⟨Cert.Kernel.Gen.facts, Cert.KernelIdeal.Gen.facts, Cert.ReferenceIdeal.Gen.facts, Cert.Pre_finite_inputs.Gen.facts,
  frame_Kernel, frame_KernelIdeal, frame_ReferenceIdeal, trivial, algebraic⟩

end Cert.Proof

end
